-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v15) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x1024 : Shape := ⟨2, ![16384, 1024]⟩
abbrev S_ : Shape := ⟨0, ![]⟩

class Facts : Prop where
  bcast_S_S16384x1024 : S_.BroadcastsInDim S16384x1024 (![] : Fin 0 → Fin S16384x1024.rank)
  reducesTo_S16384x1024_S_d0_1 : S16384x1024.ReducesTo [0, 1] S_
  h_S_ : 0 < S_.numel

variable [Facts]

def fn {F : FTy → Type} [FloatOps F] (main_arg0 : FVec F S16384x1024 .f32) (main_arg1 : FVec F S16384x1024 .f32) : IVec S_ 1 :=
  let main_v0 : FVec F S16384x1024 .f32 := Host.absf main_arg0
  let main_cst : FVec F S_ .f32 := constant S_ .f32 0x7F800000#32
  let main_v1 : FVec F S16384x1024 .f32 := broadcastInDim S16384x1024 ![] bcast_S_S16384x1024 main_cst
  let main_v2 : IVec S16384x1024 1 := cmpf .olt main_v0 main_v1
  let main_c : IVec S_ 1 := constantI S_ 1 1#1
  let main_v3 : IVec S_ 1 := (fun x v => Host.reduce IntOp.andi x v reducesTo_S16384x1024_S_d0_1 h_S_) main_v2 main_c
  let main_v4 : FVec F S16384x1024 .f32 := Host.absf main_arg1
  let main_cst_0 : FVec F S_ .f32 := constant S_ .f32 0x7F800000#32
  let main_v5 : FVec F S16384x1024 .f32 := broadcastInDim S16384x1024 ![] bcast_S_S16384x1024 main_cst_0
  let main_v6 : IVec S16384x1024 1 := cmpf .olt main_v4 main_v5
  let main_c_1 : IVec S_ 1 := constantI S_ 1 1#1
  let main_v7 : IVec S_ 1 := (fun x v => Host.reduce IntOp.andi x v reducesTo_S16384x1024_S_d0_1 h_S_) main_v6 main_c_1
  let main_v8 : IVec S_ 1 := andi main_v3 main_v7
  main_v8
-- ==== Kernel.lean ====
abbrev S16384x1024 : Shape := ⟨2, ![16384, 1024]⟩
abbrev S1x1 : Shape := ⟨2, ![1, 1]⟩
abbrev S2048x1024 : Shape := ⟨2, ![2048, 1024]⟩
abbrev S2048 : Shape := ⟨1, ![2048]⟩
abbrev S2048x1 : Shape := ⟨2, ![2048, 1]⟩
abbrev S1x2048x1 : Shape := ⟨3, ![1, 2048, 1]⟩
abbrev S1 : Shape := ⟨1, ![1]⟩
abbrev S1x1x1 : Shape := ⟨3, ![1, 1, 1]⟩
abbrev S_ : Shape := ⟨0, ![]⟩

abbrev nBuf : Space → Nat
  | .hbm => 6
  | .vmem => 6
  | .smem => 0
  | _ => 0

abbrev bufTy : (tb : Table) → Fin (tcTables nBuf tb) → BufTy
  | .hbm, ⟨0, _⟩ => ⟨S16384x1024, .f32⟩
  | .hbm, ⟨1, _⟩ => ⟨S16384x1024, .f32⟩
  | .hbm, ⟨2, _⟩ => ⟨S1x1, .f32⟩
  | .hbm, ⟨3, _⟩ => ⟨S_, .f32⟩
  | .hbm, ⟨4, _⟩ => ⟨S_, .f32⟩
  | .hbm, ⟨5, _⟩ => ⟨S_, .f32⟩
  | .local _ .vmem, ⟨0, _⟩ => ⟨S2048x1024, .f32⟩
  | .local _ .vmem, ⟨1, _⟩ => ⟨S2048x1024, .f32⟩
  | .local _ .vmem, ⟨2, _⟩ => ⟨S2048x1024, .f32⟩
  | .local _ .vmem, ⟨3, _⟩ => ⟨S2048x1024, .f32⟩
  | .local _ .vmem, ⟨4, _⟩ => ⟨S1x1, .f32⟩
  | .local _ .vmem, ⟨5, _⟩ => ⟨S1x1, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨1, ![8], ![false]⟩

def k0_cond2 (i : grid0.Coords) : BitVec 1 :=
  let arg0 : BitVec 32 := BitVec.ofNat 32 (i 0).val
  let c7_i32 : BitVec 32 := 7#32
  let v34 : BitVec 1 := Scalar.cmpi .eq arg0 c7_i32
  let v35 : BitVec 32 := Scalar.extui v34
  let c0_i32_14 : BitVec 32 := 0#32
  let v36 : BitVec 1 := Scalar.cmpi .ne v35 c0_i32_14
  v36

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S2048x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2048x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

class Facts₀ : Prop where
  inb_S1x1_S1x1_0_0 : ∀ a, (![0, 0] : Fin 2 → Nat) a + S1x1.size a ≤ S1x1.size a
  h_S1x1 : 0 < S1x1.numel
  shapeCasts_S1x1_S1x1 : S1x1.ShapeCasts S1x1
  inb_S2048x1024_S2048x1024_0_0 : ∀ a, (![0, 0] : Fin 2 → Nat) a + S2048x1024.size a ≤ S2048x1024.size a
  h_S2048x1024 : 0 < S2048x1024.numel
  reduces_S2048x1024_S2048 : S2048x1024.Reduces [1] S2048
  shapeCasts_S2048_S2048x1 : S2048.ShapeCasts S2048x1
  shapeCasts_S2048x1_S1x2048x1 : S2048x1.ShapeCasts S1x2048x1
  reduces_S1x2048x1_S1 : S1x2048x1.Reduces [1, 2] S1
  shapeCasts_S1_S1x1x1 : S1.ShapeCasts S1x1x1
  inpos_S1x1x1_p0_0_0 : ∀ a, (![0, 0, 0] : Fin 3 → Nat) a < S1x1x1.size a
  shapeCasts_S1x1_S_ : S1x1.ShapeCasts S_
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x1024.size a ≤ S16384x1024.size a
  hwx0_0 : ∀ i : grid0.Coords, EltTy.bits .f32 = 32 ∨ (Rect.block (s := S16384x1024) S2048x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2048x1024.size a ≤ S16384x1024.size a
  hwx0_1 : ∀ i : grid0.Coords, EltTy.bits .f32 = 32 ∨ (Rect.block (s := S16384x1024) S2048x1024.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x1.size a ≤ S1x1.size a
  hwx0_2 : ∀ i : grid0.Coords, EltTy.bits .f32 = 32 ∨ (Rect.block (s := S1x1) S1x1.size (cc0_transform_2 i) (hinb0_2 i)).WholeWords (EltTy.packing .f32)

variable [Facts₀]

abbrev win0_0 : Pipeline.Window sig grid0 :=
  Pipeline.Window.ofSpec (Memref.whole main_arg0) S2048x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S2048x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x1.size cc0_transform_2 reads0_2 true true 1 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev idle0 : Fin 3 → grid0.Coords → Bool := fun | 0 => fun _ => false | 1 => fun _ => false | 2 => fun i => !(k0_cond2 i == 1#1) | ⟨_ + 3, h⟩ => absurd h (Nat.not_lt.2 (Nat.le_add_left _ _))

class Facts : Prop extends Facts₀ where

variable [Facts]
-- ==== ReferenceIdeal.lean ====
abbrev S16384x1024 : Shape := ⟨2, ![16384, 1024]⟩
abbrev S_ : Shape := ⟨0, ![]⟩
abbrev S16384 : Shape := ⟨1, ![16384]⟩
abbrev S16384x1 : Shape := ⟨2, ![16384, 1]⟩

abbrev nBuf : Space → Nat
  | .hbm => 32
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S16384x1024, .f32⟩
  | .hbm, ⟨2, _⟩ => ⟨S16384x1024, .f32⟩
  | .hbm, ⟨3, _⟩ => ⟨S_, .f32⟩
  | .hbm, ⟨4, _⟩ => ⟨S16384, .f32⟩
  | .hbm, ⟨5, _⟩ => ⟨S16384x1, .f32⟩
  | .hbm, ⟨6, _⟩ => ⟨S16384x1, .f32⟩
  | .hbm, ⟨7, _⟩ => ⟨S_, .f32⟩
  | .hbm, ⟨8, _⟩ => ⟨S16384x1, .f32⟩
  | .hbm, ⟨9, _⟩ => ⟨S16384x1, .f32⟩
  | .hbm, ⟨10, _⟩ => ⟨S16384x1024, .f32⟩
  | .hbm, ⟨11, _⟩ => ⟨S16384x1024, .f32⟩
  | .hbm, ⟨12, _⟩ => ⟨S16384x1024, .f32⟩
  | .hbm, ⟨13, _⟩ => ⟨S_, .f32⟩
  | .hbm, ⟨14, _⟩ => ⟨S16384, .f32⟩
  | .hbm, ⟨15, _⟩ => ⟨S16384x1, .f32⟩
  | .hbm, ⟨16, _⟩ => ⟨S16384x1, .f32⟩
  | .hbm, ⟨17, _⟩ => ⟨S_, .f32⟩
  | .hbm, ⟨18, _⟩ => ⟨S16384x1, .f32⟩
  | .hbm, ⟨19, _⟩ => ⟨S16384x1, .f32⟩
  | .hbm, ⟨20, _⟩ => ⟨S16384x1024, .f32⟩
  | .hbm, ⟨21, _⟩ => ⟨S16384x1024, .f32⟩
  | .hbm, ⟨22, _⟩ => ⟨S16384x1024, .f32⟩
  | .hbm, ⟨23, _⟩ => ⟨S_, .f32⟩
  | .hbm, ⟨24, _⟩ => ⟨S16384, .f32⟩
  | .hbm, ⟨25, _⟩ => ⟨S_, .f32⟩
  | .hbm, ⟨26, _⟩ => ⟨S16384, .f32⟩
  | .hbm, ⟨27, _⟩ => ⟨S16384, .f32⟩
  | .hbm, ⟨28, _⟩ => ⟨S_, .f32⟩
  | .hbm, ⟨29, _⟩ => ⟨S_, .f32⟩
  | .hbm, ⟨30, _⟩ => ⟨S_, .f32⟩
  | .hbm, ⟨31, _⟩ => ⟨S_, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_v0 : Ref sig .tc := ⟨.hbm, 2, rfl⟩
abbrev main_call0_cst : Ref sig .tc := ⟨.hbm, 3, rfl⟩
abbrev main_call0_v1 : Ref sig .tc := ⟨.hbm, 4, rfl⟩
abbrev main_call0_v2 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_call1_v0 : Ref sig .tc := ⟨.hbm, 12, rfl⟩
abbrev main_call1_cst : Ref sig .tc := ⟨.hbm, 13, rfl⟩
abbrev main_call1_v1 : Ref sig .tc := ⟨.hbm, 14, rfl⟩
abbrev main_call1_v2 : Ref sig .tc := ⟨.hbm, 15, rfl⟩
abbrev main_v5 : Ref sig .tc := ⟨.hbm, 16, rfl⟩
abbrev main_cst_0 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_cst_1 : Ref sig .tc := ⟨.hbm, 23, rfl⟩
abbrev main_v11 : Ref sig .tc := ⟨.hbm, 24, rfl⟩
abbrev main_cst_2 : Ref sig .tc := ⟨.hbm, 25, rfl⟩
abbrev main_v12 : Ref sig .tc := ⟨.hbm, 26, rfl⟩
abbrev main_v13 : Ref sig .tc := ⟨.hbm, 27, rfl⟩
abbrev main_cst_3 : Ref sig .tc := ⟨.hbm, 28, rfl⟩
abbrev main_v14 : Ref sig .tc := ⟨.hbm, 29, rfl⟩
abbrev main_cst_4 : Ref sig .tc := ⟨.hbm, 30, rfl⟩
abbrev main_v15 : Ref sig .tc := ⟨.hbm, 31, rfl⟩

abbrev nD : Nat := 1
abbrev τ : Topo := Topo.v7x

variable {F : FTy → Type} [FloatOps F]

class Facts₀ : Prop where
  reducesTo_S16384x1024_S16384_d1 : S16384x1024.ReducesTo [1] S16384
  h_S_ : 0 < S_.numel
  bcast_S16384_S16384x1_0 : S16384.BroadcastsInDim S16384x1 (![0] : Fin 1 → Fin S16384x1.rank)
  bcast_S_S16384x1 : S_.BroadcastsInDim S16384x1 (![] : Fin 0 → Fin S16384x1.rank)
  bcast_S16384x1_S16384x1024_0_1 : S16384x1.BroadcastsInDim S16384x1024 (![0, 1] : Fin 2 → Fin S16384x1024.rank)
  bcast_S_S16384 : S_.BroadcastsInDim S16384 (![] : Fin 0 → Fin S16384.rank)
  reducesTo_S16384_S_d0 : S16384.ReducesTo [0] S_

variable [Facts₀]

class Facts : Prop extends Facts₀ where

variable [Facts]
-- ==== Proof.KernelPieces.lean ====
/-
  What one grid point's body leaves behind, as values.

  The body keeps a running total in a 1 × 1 scratch cell.  At every point it adds the point's tile sum — a pure
  function `k0_pay2` of the two input blocks and of the cell's previous contents — to the cell; at the first point it
  first clears the cell (stores `k0_pay1`, the zero block), so there the previous contents are that zero block; at the
  last point it also copies the cell, after the addition, into the 1 × 1 output block.  So in every case the cell ends
  at `k0_pay2` of the blocks and of what the cell held going in, and at the last point the output block ends at the
  same value.
-/
import proofs.«110353_j33732673143498_1_alg».proof.Proof.Gen.KernelIdeal.Frame
import Idealize.ShloMosaic.Lib.Pipeline.Value
import Idealize.ShloMosaic.Lib.Tactic

set_option maxRecDepth 16384

noncomputable section

open Idealize.ShloMosaic Idealize.ShloMosaic.TcCoe Idealize.SL.Sem

namespace Cert.KernelIdeal.Pieces

open Cert.KernelIdeal Cert.KernelIdeal.Gen

variable {F : FTy → Type} [FloatOps F]

theorem hz : (![0, 0] : Fin 2 → Nat) = fun _ => 0 := funext fun a => by fin_cases a <;> rfl

/-- A middle point (neither first nor last): the cell, holding `xs0`, ends at the accumulated value. -/
theorem cell_B (c : Dev nD) (i : grid0.Coords) (a1 : Memref sig .tc .vmem S2048x1024 .f32) (h1 : a1.IsWhole)
    (a2 : Memref sig .tc .vmem S2048x1024 .f32) (h2 : a2.IsWhole) (a3 : Memref sig .tc .vmem S1x1 .f32) (h3 : a3.IsWhole)
    (a4 : Memref sig .tc .vmem S1x1 .f32) (h4 : a4.IsWhole) (hc0 : ¬cond0_0 i) (hc1 : ¬cond0_1 i)
    (x0 x1 : Vec F S2048x1024 .f32) (xs0 : Vec F S1x1 .f32) :
    sout0_B_0 c i a1 h1 a2 h2 a3 h3 a4 h4 hc0 hc1 x0 x1 xs0 = k0_pay2 x0 x1 xs0 := by
  unfold sout0_B_0
  rw [View.read_writes_eq_canon _ _ _ (scover0_B_0 c i a1 h1 a2 h2 a3 h3 a4 h4 hc0 hc1 x0 x1 xs0)]
  unfold kernelRun0_B
  dsimp only
  rw [View.canon_unit_zero hz]
  simp only [View.readAt_eq_ld, h1.read_unread, h2.read_unread, h4.read_unread, View.ld_unit_zero (S := S2048x1024) hz,
    View.ld_unit_zero (S := S1x1) hz]

/-- The last point: the cell, holding `xs0`, ends at the accumulated value, -/
theorem cell_C (c : Dev nD) (i : grid0.Coords) (a1 : Memref sig .tc .vmem S2048x1024 .f32) (h1 : a1.IsWhole)
    (a2 : Memref sig .tc .vmem S2048x1024 .f32) (h2 : a2.IsWhole) (a3 : Memref sig .tc .vmem S1x1 .f32) (h3 : a3.IsWhole)
    (a4 : Memref sig .tc .vmem S1x1 .f32) (h4 : a4.IsWhole) (hc0 : ¬cond0_0 i) (hc1 : cond0_1 i)
    (x0 x1 : Vec F S2048x1024 .f32) (xs0 : Vec F S1x1 .f32) :
    sout0_C_0 c i a1 h1 a2 h2 a3 h3 a4 h4 hc0 hc1 x0 x1 xs0 = k0_pay2 x0 x1 xs0 := by
  unfold sout0_C_0
  rw [View.read_writes_eq_canon _ _ _ (scover0_C_0 c i a1 h1 a2 h2 a3 h3 a4 h4 hc0 hc1 x0 x1 xs0)]
  unfold kernelRun0_C
  dsimp only
  sl_unfold_words
  rw [View.canon_unit_zero hz]
  simp only [View.readAt_eq_ld, h1.read_unread, h2.read_unread, h4.read_unread, View.ld_unit_zero (S := S2048x1024) hz,
    View.ld_unit_zero (S := S1x1) hz]

/-- and the output block ends at that same value: the copy reads the cell back after the addition was stored. -/
theorem out_C (c : Dev nD) (i : grid0.Coords) (a1 : Memref sig .tc .vmem S2048x1024 .f32) (h1 : a1.IsWhole)
    (a2 : Memref sig .tc .vmem S2048x1024 .f32) (h2 : a2.IsWhole) (a3 : Memref sig .tc .vmem S1x1 .f32) (h3 : a3.IsWhole)
    (a4 : Memref sig .tc .vmem S1x1 .f32) (h4 : a4.IsWhole) (hc0 : ¬cond0_0 i) (hc1 : cond0_1 i)
    (x0 x1 : Vec F S2048x1024 .f32) (xs0 : Vec F S1x1 .f32) :
    out0_C_2 c i a1 h1 a2 h2 a3 h3 a4 h4 hc0 hc1 x0 x1 xs0 = k0_pay2 x0 x1 xs0 := by
  unfold out0_C_2
  rw [View.read_writes_eq_canon _ _ _ (cover0_C_2 c i a1 h1 a2 h2 a3 h3 a4 h4 hc0 hc1 x0 x1 xs0)]
  unfold kernelRun0_C
  dsimp only
  sl_unfold_words
  rw [View.canon_unit_zero hz]
  simp only [View.readAt_eq_ld, h1.read_unread, h2.read_unread, h4.read_unread, View.ld_unit_zero (S := S2048x1024) hz,
    View.ld_unit_zero (S := S1x1) hz]
  exact View.readCov_unit_zero (S := S1x1) _ hz _ _

/-- The first point: the cell is cleared, then accumulated into, so it ends at the accumulated value over the zero block. -/
theorem cell_A (c : Dev nD) (i : grid0.Coords) (a1 : Memref sig .tc .vmem S2048x1024 .f32) (h1 : a1.IsWhole)
    (a2 : Memref sig .tc .vmem S2048x1024 .f32) (h2 : a2.IsWhole) (a3 : Memref sig .tc .vmem S1x1 .f32) (h3 : a3.IsWhole)
    (a4 : Memref sig .tc .vmem S1x1 .f32) (h4 : a4.IsWhole) (hc0 : cond0_0 i) (hc1 : ¬cond0_1 i)
    (x0 x1 : Vec F S2048x1024 .f32) :
    sout0_A_0 c i a1 h1 a2 h2 a3 h3 a4 h4 hc0 hc1 x0 x1 = k0_pay2 x0 x1 k0_pay1 := by
  unfold sout0_A_0
  rw [View.read_writes_eq_canon _ _ _ (scover0_A_0 c i a1 h1 a2 h2 a3 h3 a4 h4 hc0 hc1 x0 x1)]
  unfold kernelRun0_A
  dsimp only
  sl_unfold_words
  rw [View.canon_cons_unit_zero (S := S1x1) hz, View.readCov_unit_zero (S := S1x1) _ hz]
  simp only [View.readAt_eq_ld, h1.read_unread, h2.read_unread, View.ld_unit_zero (S := S2048x1024) hz,
    View.ld_unit_zero (S := S1x1) hz]

end Cert.KernelIdeal.Pieces

end
-- ==== Proof.LibKeepdims.lean ====
/-
  Column layouts and a lane sum read at an index.

  A sum over the last axis that keeps its dimension leaves a column: the [a] vector of row sums viewed as [a, 1],
  then spread along the rows of an [a, b] array. Read at `(p, c)` that array holds the sum of row `p`, whatever the
  column `c`. The lemmas here say so one layout step at a time, for every extent:
  • `shapeCast_a_a1_apply`: a vector [a] viewed as a column [a, 1] reads, at `(p, 0)`, the vector at `p`;
  • `broadcastTo_a1_ab_apply`: a column [a, 1] spread to [a, b] reads, at `(p, c)`, the column at `(p, 0)`;
  • `laneSum_apply`: over the extended reals, the sum of an [a, b] array along its last axis reads, at `p`, the
    finite sum over `k < b` of the array at `(p, k)`.
  Together with the library's row forms ([a] viewed as [1, a], a row [1, b] spread to [a, b]) these read every
  `sum(axis = -1, keepdims = True)` a kernel body broadcasts back over its block.
-/
import Idealize.ShloMosaic.Lib.Pipeline.Value
import Idealize.ShloMosaic.Lib.ValueIdx
import Idealize.ShloMosaic.PureOps.Ideal.Laws

noncomputable section

namespace Cert.Lib.Keepdims

open Idealize.ShloMosaic Idealize.ShloMosaic.ValueIdx

variable {α : Type}

/-- A vector [a] viewed as a column [a, 1]: entry `(p, u)` of the column is entry `p` of the vector (row-major
    position `p · 1 + 0 = p`). -/
theorem shapeCast_a_a1_apply {a : ℕ} (x : (⟨1, ![a]⟩ : Shape).Idx → α) (h : (⟨1, ![a]⟩ : Shape).ShapeCasts ⟨2, ![a, 1]⟩)
    (p : Fin a) (u : Fin 1) : shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    rw [hu, Nat.mul_one, Nat.add_zero])

/-- A column [a, 1] spread along the rows of an [a, b] array: entry `(p, c)` is the column's entry in row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- Over the extended reals the sum of an [a, b] array along its last axis, read at row `p`, is `∑ k < b` of the
    array at `(p, k)`: the reduced index with the summed coordinate put back is `(p, k)`. -/
theorem laneSum_apply {a b : ℕ} {φ : FTy} (v : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ) (p : Fin a) :
    multiReduction .add [1] ⟨1, ![a]⟩ v acc h hφ hacc (ix1 p) = ∑ k : Fin b, v (ix2 p k) :=
  (Ideal.multiReduction_add_single v acc h hφ hacc (ix1 p)).trans
    (Finset.sum_congr rfl fun k _ => congrArg v (funext fun d => Fin.ext (by
      match d with
      | ⟨0, _⟩ => rfl
      | ⟨1, _⟩ => rfl)))

end Cert.Lib.Keepdims

end
-- ==== Proof.LibPlaneSums.lean ====
/-
  Sums over the two trailing axes of an array ("plane sums"), read as iterated finite sums.

  A `vector.multi_reduction <add>` of an [a, b, c] array over its axes 1 and 2, and a host
  `stablehlo.reduce` with an add body of an [n, m, b, c] array over its axes 2 and 3, are both, at the
  exact (extended-real) reading, the sum of the source over every index whose kept coordinates are the
  result's.  Here that set of indices is put in bijection with the pairs (p, q) of coordinates on the two
  reduced axes, so the reduction at a kept index is the double sum over p and q of the source at
  (kept coordinates, p, q); the host's form has its initial value in front.  All statements are general in
  the extents.
-/
import Idealize.ShloMosaic.PureOps.Ideal.Laws
import Idealize.ShloMosaic.Lib.ValueIdx

namespace Idealize.ShloMosaic.PlaneSums

open Idealize.ShloMosaic Idealize.ShloMosaic.ValueIdx

variable {α : Type*} [AddCommMonoid α]

/-- Rank 3, axes 1 and 2 dropped: the indices of an [a, b, c] array whose first coordinate is `j` are the
    (j, p, q), so a sum over them is the double sum over p and q. -/
theorem sum_filter_drop_abc {a b c : ℕ} (h : (⟨3, ![a, b, c]⟩ : Shape).Reduces [1, 2] ⟨1, ![a]⟩)
    (x : (⟨3, ![a, b, c]⟩ : Shape).Idx → α) (j : Fin a) :
    ∑ i ∈ Finset.univ.filter (fun i => h.drop i = ix1 j), x i = ∑ p : Fin b, ∑ q : Fin c, x (ix3 j p q) := by
  have hd : ∀ i : (⟨3, ![a, b, c]⟩ : Shape).Idx, (h.drop i 0 : ℕ) = (i 0 : ℕ) := fun _ => rfl
  have back : ∀ i : (⟨3, ![a, b, c]⟩ : Shape).Idx, h.drop i = ix1 j → ix3 j (i 1) (i 2) = i := fun i hi => by
    have h0 : (i 0 : ℕ) = j.val := by rw [← hd i, hi]; rfl
    funext d
    match d with
    | ⟨0, _⟩ => exact Fin.ext h0.symm
    | ⟨1, _⟩ => rfl
    | ⟨2, _⟩ => rfl
  rw [← Fintype.sum_prod_type' (fun p q => x (ix3 j p q))]
  refine Finset.sum_nbij' (fun i => ((i 1 : Fin b), (i 2 : Fin c))) (fun pq => ix3 j pq.1 pq.2) ?_ ?_ ?_ ?_ ?_
  · intro i _; exact Finset.mem_univ _
  · intro pq _
    refine Finset.mem_filter.2 ⟨Finset.mem_univ _, funext fun d => ?_⟩
    match d with
    | ⟨0, _⟩ => exact Fin.ext (hd _)
  · intro i hi; exact back i (Finset.mem_filter.1 hi).2
  · intro pq _; rfl
  · intro i hi; exact congrArg x (back i (Finset.mem_filter.1 hi).2).symm

/-- Rank 4, axes 2 and 3 dropped: the indices of an [n, m, b, c] array whose first two coordinates are
    `(i, k)` are the (i, k, p, q). -/
theorem sum_filter_drop_nmbc {n m b c : ℕ} (h : (⟨4, ![n, m, b, c]⟩ : Shape).ReducesTo [2, 3] ⟨2, ![n, m]⟩)
    (x : (⟨4, ![n, m, b, c]⟩ : Shape).Idx → α) (i : Fin n) (k : Fin m) :
    ∑ y ∈ Finset.univ.filter (fun y => h.drop y = ix2 i k), x y = ∑ p : Fin b, ∑ q : Fin c, x (ix4 i k p q) := by
  have hd0 : ∀ y : (⟨4, ![n, m, b, c]⟩ : Shape).Idx, (h.drop y 0 : ℕ) = (y 0 : ℕ) := fun _ => rfl
  have hd1 : ∀ y : (⟨4, ![n, m, b, c]⟩ : Shape).Idx, (h.drop y 1 : ℕ) = (y 1 : ℕ) := fun _ => rfl
  have back : ∀ y : (⟨4, ![n, m, b, c]⟩ : Shape).Idx, h.drop y = ix2 i k → ix4 i k (y 2) (y 3) = y := fun y hy => by
    have h0 : (y 0 : ℕ) = i.val := by rw [← hd0 y, hy]; rfl
    have h1 : (y 1 : ℕ) = k.val := by rw [← hd1 y, hy]; rfl
    funext d
    match d with
    | ⟨0, _⟩ => exact Fin.ext h0.symm
    | ⟨1, _⟩ => exact Fin.ext h1.symm
    | ⟨2, _⟩ => rfl
    | ⟨3, _⟩ => rfl
  rw [← Fintype.sum_prod_type' (fun p q => x (ix4 i k p q))]
  refine Finset.sum_nbij' (fun y => ((y 2 : Fin b), (y 3 : Fin c))) (fun pq => ix4 i k pq.1 pq.2) ?_ ?_ ?_ ?_ ?_
  · intro y _; exact Finset.mem_univ _
  · intro pq _
    refine Finset.mem_filter.2 ⟨Finset.mem_univ _, funext fun d => ?_⟩
    match d with
    | ⟨0, _⟩ => exact Fin.ext (hd0 _)
    | ⟨1, _⟩ => exact Fin.ext (hd1 _)
  · intro y hy; exact back y (Finset.mem_filter.1 hy).2
  · intro pq _; rfl
  · intro y hy; exact congrArg x (back y (Finset.mem_filter.1 hy).2).symm

variable {φ : FTy}

/-- A float `vector.multi_reduction <add>` of an [a, b, c] array over axes 1 and 2, read exactly at `j`:
    the sum over the plane of the source at (j, p, q). -/
theorem multiReduction_add_planes {a b c : ℕ} (src : FVec Ideal ⟨3, ![a, b, c]⟩ φ) (acc : BitVec φ.bits)
    (h : (⟨3, ![a, b, c]⟩ : Shape).Reduces [1, 2] ⟨1, ![a]⟩) (hφ : FKind.Formats φ)
    (hacc : acc = FKind.add.neutral φ hφ) (j : Fin a) :
    multiReduction .add [1, 2] ⟨1, ![a]⟩ src acc h hφ hacc (ix1 j) = ∑ p : Fin b, ∑ q : Fin c, src (ix3 j p q) :=
  sum_filter_drop_abc h src j

/-- The host's `stablehlo.reduce` with an add body of an [n, m, b, c] array over axes 2 and 3, read exactly
    at `(i, k)`: the initial value plus the sum over the plane of the operand at (i, k, p, q). -/
theorem hostReduceAdd_planes {n m b c : ℕ} {u : Shape} (x : FVec Ideal ⟨4, ![n, m, b, c]⟩ φ) (init : u.Idx → Ideal φ)
    (h : (⟨4, ![n, m, b, c]⟩ : Shape).ReducesTo [2, 3] ⟨2, ![n, m]⟩) (hu : 0 < u.numel) (i : Fin n) (k : Fin m) :
    Host.reduceAdd x init h hu (ix2 i k)
      = init (Shape.Idx.first hu) + ∑ p : Fin b, ∑ q : Fin c, x (ix4 i k p q) := by
  show Ideal.hostReduceAdd h x (init (Shape.Idx.first hu)) (ix2 i k) = _
  unfold Ideal.hostReduceAdd
  rw [sum_filter_drop_nmbc h x i k]

end Idealize.ShloMosaic.PlaneSums
-- ==== Proof.LibBlockSum.lean ====
/-
  A sum over a·b rows taken block by block.

  The rows 0 … a·b - 1 fall into a consecutive blocks of b rows: block t holds the rows b·t + p for p < b.  Every row is
  b·t + p for exactly one pair (t, p) with t < a and p < b, so summing block by block — the blocks counted by a natural
  number below a — is summing over all the rows.
-/
import Mathlib.Algebra.BigOperators.Fin
import Mathlib.Algebra.BigOperators.Group.Finset.Basic
import Mathlib.Logic.Equiv.Fin.Basic
import Mathlib.Tactic.Ring

namespace BlockSum

/-- Row p of block t lies below a·b. -/
theorem block_lt {a b t : ℕ} (h : t < a) (p : Fin b) : b * t + p.val < a * b := by
  have hp := p.isLt
  calc b * t + p.val < b * t + b := by omega
    _ = b * (t + 1) := by ring
    _ ≤ b * a := Nat.mul_le_mul_left b h
    _ = a * b := Nat.mul_comm b a

/-- The sum over the blocks of the sums within each block is the sum over all the rows. -/
theorem sum_blocks {M : Type*} [AddCommMonoid M] (a b : ℕ) (g : Fin (a * b) → M) :
    ∑ t ∈ Finset.range a, (if h : t < a then ∑ p : Fin b, g ⟨b * t + p.val, block_lt h p⟩ else 0)
      = ∑ R : Fin (a * b), g R := by
  rw [Finset.sum_range]
  calc ∑ i : Fin a, (if h : (i : ℕ) < a then ∑ p : Fin b, g ⟨b * (i : ℕ) + p.val, block_lt h p⟩ else 0)
      = ∑ i : Fin a, ∑ p : Fin b, g ⟨b * (i : ℕ) + p.val, block_lt i.isLt p⟩ :=
        Finset.sum_congr rfl fun i _ => dif_pos i.isLt
    _ = ∑ x : Fin a × Fin b, g ⟨b * (x.1 : ℕ) + x.2.val, block_lt x.1.isLt x.2⟩ :=
        (Fintype.sum_prod_type' fun (i : Fin a) (p : Fin b) => g ⟨b * (i : ℕ) + p.val, block_lt i.isLt p⟩).symm
    _ = ∑ R : Fin (a * b), g R :=
        Fintype.sum_equiv finProdFinEquiv _ _ fun x => congrArg g (Fin.ext (by
          show b * (x.1 : ℕ) + x.2.val = (finProdFinEquiv x : ℕ)
          rw [finProdFinEquiv_apply_val]
          exact Nat.add_comm _ _))

/-- Eight blocks of 1024 rows are the 8192 rows. -/
theorem sum_blocks_8_1024 {M : Type*} [AddCommMonoid M] (g : Fin 8192 → M) :
    ∑ t ∈ Finset.range 8, (if h : t < 8 then ∑ p : Fin 1024, g ⟨1024 * t + p.val, by omega⟩ else 0)
      = ∑ R : Fin 8192, g R :=
  sum_blocks 8 1024 g

end BlockSum
-- ==== Proof.CosineAlgebra.lean ====
/-
  The algebra that joins the two programs, on the extended reals.

  For a row x and a row y of finite reals, with the floored norms n(x) = max(√(Σ x²), ε) and n(y) (ε the
  threshold both programs carry as the same positive word), one program forms the cosine as
      (Σₖ xₖ yₖ) / (n(x) · n(y))
  and the other as
      Σₖ (xₖ / n(x)) · (yₖ / n(y)).
  Both floored norms are positive reals (at least ε), so dividing by them is multiplying by a real reciprocal,
  and the reciprocal distributes over the finite sum of reals: the two forms are one number.  This is where
  finiteness of the inputs is used; on the infinities the distributive law fails.

  The loss sums 1 - cos over the 16384 rows.  One program takes the rows in eight consecutive blocks of 2048
  (and, inside a block, as a 2048 × 1 plane); the other takes them all at once.  A finite sum in a commutative
  monoid does not depend on the grouping.
-/
import Idealize.ShloMosaic.PureOps.Ideal
import Idealize.ShloMosaic.PureOps.Ideal.Laws
import proofs.«110353_j33732673143498_1_alg».proof.Proof.LibBlockSum

noncomputable section

namespace Cert.CosLoss

open Idealize.ShloMosaic

/-- The threshold ε under the norms, as the word both programs carry. -/
abbrev epsW : EReal := Ideal.ofBits .f32 0x2B8CBCCC#32
/-- The word of 1.0 both programs subtract the cosine from (never evaluated: it is the same on both sides). -/
abbrev oneW : EReal := Ideal.ofBits .f32 0x3F800000#32

/-- ε is a positive real. -/
theorem epsW_pos : ∃ e : ℝ, 0 < e ∧ epsW = (e : EReal) := by
  simp [epsW, Ideal.ofBits, Ideal.ieee, -EReal.coe_mul]

/-- The coercion of the reals into the extended reals commutes with a finite sum. -/
theorem coe_sum {ι : Type*} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

variable {ι : Type*} [Fintype ι]

/-- The floored norm of a row: max(√(Σ x²), ε). -/
def flooredNorm (x : ι → EReal) : EReal := max (Ideal.sqrt (∑ k, x k * x k)) epsW

/-- The cosine as a quotient of the dot product by the product of the floored norms. -/
def cosQuot (x y : ι → EReal) : EReal := Ideal.div (∑ k, x k * y k) (flooredNorm x * flooredNorm y)

/-- The cosine as the dot product of the two rows, each divided by its floored norm. -/
def cosDot (x y : ι → EReal) : EReal := ∑ k, Ideal.div (x k) (flooredNorm x) * Ideal.div (y k) (flooredNorm y)

/-- The floored norm of a row of reals is a positive real. -/
theorem flooredNorm_pos (x : ι → EReal) (hx : ∀ k, ∃ a : ℝ, x k = a) :
    ∃ n : ℝ, 0 < n ∧ flooredNorm x = (n : EReal) := by
  choose a ha using hx
  obtain ⟨e, he, hE⟩ := epsW_pos
  have hs : (∑ k, x k * x k) = ((∑ k, a k * a k : ℝ) : EReal) := by
    rw [coe_sum]; exact Finset.sum_congr rfl fun k _ => by rw [ha k, EReal.coe_mul]
  refine ⟨max (Real.sqrt (∑ k, a k * a k)) e, lt_max_of_lt_right he, ?_⟩
  unfold flooredNorm
  rw [hs, Ideal.sqrt_coe, if_neg (not_lt.mpr (Finset.sum_nonneg fun k _ => mul_self_nonneg (a k))), hE]
  exact (Monotone.map_max EReal.coe_strictMono.monotone).symm

/-- On rows of reals the two forms of the cosine agree. -/
theorem cosQuot_eq_cosDot (x y : ι → EReal) (hx : ∀ k, ∃ a : ℝ, x k = a) (hy : ∀ k, ∃ b : ℝ, y k = b) :
    cosQuot x y = cosDot x y := by
  obtain ⟨nx, hnx, hX⟩ := flooredNorm_pos x hx
  obtain ⟨ny, hny, hY⟩ := flooredNorm_pos y hy
  choose a ha using hx
  choose b hb using hy
  unfold cosQuot cosDot
  rw [hX, hY, ← EReal.coe_mul, Ideal.div_coe (mul_pos hnx hny).ne']
  have hxy : (∑ k, x k * y k) = ((∑ k, a k * b k : ℝ) : EReal) := by
    rw [coe_sum]; exact Finset.sum_congr rfl fun k _ => by rw [ha k, hb k, EReal.coe_mul]
  rw [hxy, ← EReal.coe_mul]
  have hr : ∀ k, Ideal.div (x k) (nx : EReal) * Ideal.div (y k) (ny : EReal)
      = ((a k * (1 / nx) * (b k * (1 / ny)) : ℝ) : EReal) := fun k => by
    rw [Ideal.div_coe hnx.ne', Ideal.div_coe hny.ne', ha k, hb k, ← EReal.coe_mul, ← EReal.coe_mul, ← EReal.coe_mul]
  rw [Finset.sum_congr rfl fun k _ => hr k, ← coe_sum]
  congr 1
  rw [Finset.sum_mul]
  exact Finset.sum_congr rfl fun k _ => by
    have h1 := hnx.ne'
    have h2 := hny.ne'
    field_simp

/-- Eight blocks of 2048 rows are the 16384 rows. -/
theorem sum_blocks_8_2048 {M : Type*} [AddCommMonoid M] (g : Fin 16384 → M) :
    ∑ t ∈ Finset.range 8, (if h : t < 8 then ∑ p : Fin 2048, g ⟨2048 * t + p.val, by omega⟩ else 0)
      = ∑ R : Fin 16384, g R :=
  BlockSum.sum_blocks 8 2048 g

/-- The loss's sum block by block, each block a 2048 × 1 plane of quotient-form terms, is the sum over all rows of
    the dot-form terms, when every entry is a real. -/
theorem blocks_eq_rows (X Y : Fin 16384 → Fin 1024 → EReal)
    (hX : ∀ r k, ∃ a : ℝ, X r k = a) (hY : ∀ r k, ∃ b : ℝ, Y r k = b) :
    ∑ t ∈ Finset.range 8, (if h : t < 8 then
        ∑ p : Fin 2048, ∑ _q : Fin 1, (oneW - cosQuot (X ⟨2048 * t + p.val, by omega⟩) (Y ⟨2048 * t + p.val, by omega⟩))
      else 0)
      = ∑ r : Fin 16384, (oneW - cosDot (X r) (Y r)) := by
  rw [← sum_blocks_8_2048 fun r => oneW - cosDot (X r) (Y r)]
  refine Finset.sum_congr rfl fun t _ => ?_
  by_cases h : t < 8
  · rw [dif_pos h, dif_pos h]
    refine Finset.sum_congr rfl fun p _ => ?_
    rw [Fin.sum_univ_one, cosQuot_eq_cosDot _ _ (hX _) (hY _)]
  · rw [dif_neg h, dif_neg h]

end Cert.CosLoss

end
-- ==== Proof.TilePayload.lean ====
/-
  One grid point's arithmetic, read exactly.

  The point holds a block x of 2048 rows of the first input and the matching block y of the second.  For each row p
  it forms the dot product Σₖ x(p,k)·y(p,k) and the two floored norms max(√(Σₖ x(p,k)²), ε), max(√(Σₖ y(p,k)²), ε),
  all as a 2048 × 1 column (a lane sum viewed as a column), then the column of 1 - dot / (norm · norm), and adds that
  column up as a 1 × 2048 × 1 plane.  The payload stored into the running-total cell is the cell's previous contents
  plus that plane sum.  On the extended reals a lane sum is the finite sum over the lane index and a plane sum the
  double sum over the plane, so the payload at the cell's one index is
      previous + Σ_{p < 2048} Σ_{q < 1} (1 - cosQuot(row p of x, row p of y)).
  The zero block the first point stores is 0.
-/
import proofs.«110353_j33732673143498_1_alg».proof.Proof.Gen.KernelIdeal.Skeleton
import proofs.«110353_j33732673143498_1_alg».proof.Proof.LibKeepdims
import proofs.«110353_j33732673143498_1_alg».proof.Proof.LibPlaneSums
import proofs.«110353_j33732673143498_1_alg».proof.Proof.CosineAlgebra
import Idealize.ShloMosaic.Lib.ValueIdx
import Idealize.ShloMosaic.Lib.ValueLayout
import Idealize.ShloMosaic.Lib.Pipeline.Value
import Idealize.ShloMosaic.PureOps.Ideal.Laws

noncomputable section

open Idealize.ShloMosaic Idealize.ShloMosaic.ValueIdx

namespace Cert.KernelIdeal.Tile

open Cert.KernelIdeal Cert.KernelIdeal.Gen Cert.CosLoss Cert.Lib.Keepdims Idealize.ShloMosaic.PlaneSums

/-- Row p of a 2048 × 1024 block. -/
abbrev rowOf (x : FVec Ideal S2048x1024 .f32) (p : Fin 2048) : Fin 1024 → EReal := fun k => x (ix2 p k)

/-- The column of row-wise dot products of two blocks. -/
def rowDot (x y : FVec Ideal S2048x1024 .f32) : FVec Ideal S2048x1 .f32 :=
  shapeCast S2048x1 (multiReduction .add [1] S2048 (mulf x y) 0x00000000#32 reduces_S2048x1024_S2048 (.inl rfl) rfl)
    shapeCasts_S2048_S2048x1

theorem rowDot_apply (x y : FVec Ideal S2048x1024 .f32) (p : Fin 2048) (u : Fin 1) :
    rowDot x y (ix2 p u) = ∑ k : Fin 1024, x (ix2 p k) * y (ix2 p k) :=
  (shapeCast_a_a1_apply _ shapeCasts_S2048_S2048x1 p u).trans
    (laneSum_apply (mulf x y) _ reduces_S2048x1024_S2048 _ _ p)

/-- The column of floored norms of a block's rows. -/
def normCol (x : FVec Ideal S2048x1024 .f32) : FVec Ideal S2048x1 .f32 :=
  maximumf (sqrt (rowDot x x)) (broadcast S2048x1 (Scalar.ofBits .f32 0x2B8CBCCC#32))

theorem normCol_apply (x : FVec Ideal S2048x1024 .f32) (p : Fin 2048) (u : Fin 1) :
    normCol x (ix2 p u) = flooredNorm (rowOf x p) := by
  show max (Ideal.sqrt (rowDot x x (ix2 p u))) (Ideal.ofBits .f32 0x2B8CBCCC#32) = _
  rw [rowDot_apply]
  rfl

/-- The column of 1 - cosine over the block's rows, the cosine in its quotient form. -/
def lossCol (x y : FVec Ideal S2048x1024 .f32) : FVec Ideal S2048x1 .f32 :=
  subf (broadcast S2048x1 (Scalar.ofBits .f32 0x3F800000#32)) (divf (rowDot x y) (mulf (normCol x) (normCol y)))

theorem lossCol_apply (x y : FVec Ideal S2048x1024 .f32) (p : Fin 2048) (u : Fin 1) :
    lossCol x y (ix2 p u) = oneW - cosQuot (rowOf x p) (rowOf y p) := by
  show Ideal.ofBits .f32 0x3F800000#32 - Ideal.div (rowDot x y (ix2 p u)) (normCol x (ix2 p u) * normCol y (ix2 p u)) = _
  rw [rowDot_apply, normCol_apply, normCol_apply]
  rfl

/-- The block's total: the column summed as a plane and taken out of its 1 × 1 × 1 wrapping. -/
def tileTotal (x y : FVec Ideal S2048x1024 .f32) : Ideal .f32 :=
  extractAt ![0, 0, 0] (shapeCast S1x1x1 (multiReduction .add [1, 2] S1
    (shapeCast S1x2048x1 (lossCol x y) shapeCasts_S2048x1_S1x2048x1) 0x00000000#32 reduces_S1x2048x1_S1 (.inl rfl) rfl)
    shapeCasts_S1_S1x1x1) inpos_S1x1x1_p0_0_0

theorem tileTotal_eq (x y : FVec Ideal S2048x1024 .f32) :
    tileTotal x y = ∑ p : Fin 2048, ∑ _q : Fin 1, (oneW - cosQuot (rowOf x p) (rowOf y p)) := by
  unfold tileTotal extractAt
  refine (shapeCast_apply _ shapeCasts_S1_S1x1x1 _ (ix1 (0 : Fin 1)) ?_).trans ?_
  · rw [Shape.rowMajor_val_one, Shape.rowMajor_val_three]
    rfl
  refine (multiReduction_add_planes _ _ reduces_S1x2048x1_S1 _ _ (0 : Fin 1)).trans ?_
  refine Finset.sum_congr rfl fun p _ => Finset.sum_congr rfl fun q _ => ?_
  exact (shapeCast_ab_1ab_apply _ shapeCasts_S2048x1_S1x2048x1 0 p q).trans (lossCol_apply x y p q)

/-- The printed payload is the previous contents plus the block's total, spread over the cell. -/
theorem pay2_eq (x0 x1 : Vec Ideal S2048x1024 .f32) (xs0 : Vec Ideal S1x1 .f32) :
    k0_pay2 (F := Ideal) x0 x1 xs0
      = shapeCast S1x1 (addf xs0 (broadcast S1x1 (tileTotal x0 x1))) shapeCasts_S1x1_S1x1 := rfl

/-- The payload at the cell's index: previous contents plus the double sum of the block's 1 - cosine terms. -/
theorem pay2_apply (x0 x1 : Vec Ideal S2048x1024 .f32) (xs0 : Vec Ideal S1x1 .f32) (j : S1x1.Idx) :
    k0_pay2 (F := Ideal) x0 x1 xs0 j
      = xs0 j + ∑ p : Fin 2048, ∑ _q : Fin 1, (oneW - cosQuot (rowOf x0 p) (rowOf x1 p)) := by
  rw [pay2_eq, shapeCast_self]
  show xs0 j + tileTotal x0 x1 = _
  rw [tileTotal_eq]

/-- The zero block is 0. -/
theorem pay1_apply (j : S1x1.Idx) : k0_pay1 (F := Ideal) j = 0 := by
  unfold k0_pay1
  rw [shapeCast_self]
  exact Ideal.ofBits_zero_f32

end Cert.KernelIdeal.Tile

end
-- ==== Proof.KernelTotal.lean ====
/-
  The running total over the grid, read exactly.

  Point t of the eight holds rows 2048·t … 2048·t + 2047 of the two inputs (the blocks tile the rows; each block spans
  all 1024 columns), so row p of its block is row 2048·t + p of the input.  Write T(t) for the point's tile term, the
  double sum over p < 2048, q < 1 of 1 - cosQuot(row 2048·t + p of the first input, the same row of the second).
  The cell holds 0 + T(0) after the first point and gains T(t) at each later point, so after point n it holds
  Σ_{s ≤ n} T(s) (induction on the point).  At the last point the output block receives the cell's new contents:
  Σ_{s ≤ 7} T(s).
-/
import proofs.«110353_j33732673143498_1_alg».proof.Proof.Gen.KernelIdeal.Frame
import proofs.«110353_j33732673143498_1_alg».proof.Proof.KernelPieces
import proofs.«110353_j33732673143498_1_alg».proof.Proof.TilePayload
import Idealize.ShloMosaic.Lib.Pipeline.Value
import Idealize.ShloMosaic.Lib.Tactic

set_option maxRecDepth 16384

noncomputable section

open Idealize.ShloMosaic Idealize.ShloMosaic.TcCoe Idealize.SL.Sem Idealize.ShloMosaic.ValueIdx
open Idealize.ShloMosaic.Pipeline (Dat)

namespace Cert.KernelIdeal.Total

open Cert.KernelIdeal Cert.KernelIdeal.Gen Cert.CosLoss Cert.KernelIdeal.Tile

variable (m : (ℓ : Loc nD τ sig) → Buf (Elt Ideal) ℓ)

/-- The first input by coordinates: row r, column k. -/
abbrev X (c : Dev nD) : Fin 16384 → Fin 1024 → EReal := fun r k => m ((c : Thread nD τ).loc main_arg0) (ix2 r k)
/-- The second input by coordinates. -/
abbrev Y (c : Dev nD) : Fin 16384 → Fin 1024 → EReal := fun r k => m ((c : Thread nD τ).loc main_arg1) (ix2 r k)

theorem N8 : cfg0.N = 8 := N_0

/-- The two input windows' block index at point t is (t, 0). -/
theorem index0 : ∀ t : Fin cfg0.N, win0_0.index t 0 = t.val ∧ win0_0.index t 1 = 0 :=
  (by decide +kernel : ∀ t : Fin grid0.N, win0_0.index t 0 = t.val ∧ win0_0.index t 1 = 0)
theorem index1 : ∀ t : Fin cfg0.N, win0_1.index t 0 = t.val ∧ win0_1.index t 1 = 0 :=
  (by decide +kernel : ∀ t : Fin grid0.N, win0_1.index t 0 = t.val ∧ win0_1.index t 1 = 0)

theorem row_lt (t : Fin cfg0.N) (p : Fin 2048) : 2048 * t.val + p.val < 16384 := by
  have ht : t.val < 8 := lt_of_lt_of_eq t.isLt N8
  have hp := p.isLt
  omega

/-- Entry (p, k) of the first input's block at point t is entry (2048·t + p, k) of the input. -/
theorem iblk0_apply (c : Dev nD) (t : Fin cfg0.N) (p : Fin 2048) (k : Fin 1024) :
    (iblk m c 0 t : Vec Ideal S2048x1024 .f32) (ix2 p k) = X m c ⟨2048 * t.val + p.val, row_lt t p⟩ k := by
  have hi := index0 t
  unfold iblk
  rw [View.read_apply]
  show m ((c : Thread nD τ).loc main_arg0) _ = m ((c : Thread nD τ).loc main_arg0) _
  congr 1
  funext a
  apply Fin.ext
  match a with
  | ⟨0, _⟩ => show win0_0.index t 0 * 2048 + 1 * p.val = 2048 * t.val + p.val; rw [hi.1]; omega
  | ⟨1, _⟩ => show win0_0.index t 1 * 1024 + 1 * k.val = k.val; rw [hi.2]; omega

/-- The same for the second input. -/
theorem iblk1_apply (c : Dev nD) (t : Fin cfg0.N) (p : Fin 2048) (k : Fin 1024) :
    (iblk m c 1 t : Vec Ideal S2048x1024 .f32) (ix2 p k) = Y m c ⟨2048 * t.val + p.val, row_lt t p⟩ k := by
  have hi := index1 t
  unfold iblk
  rw [View.read_apply]
  show m ((c : Thread nD τ).loc main_arg1) _ = m ((c : Thread nD τ).loc main_arg1) _
  congr 1
  funext a
  apply Fin.ext
  match a with
  | ⟨0, _⟩ => show win0_1.index t 0 * 2048 + 1 * p.val = 2048 * t.val + p.val; rw [hi.1]; omega
  | ⟨1, _⟩ => show win0_1.index t 1 * 1024 + 1 * k.val = k.val; rw [hi.2]; omega

/-- The tile term of point t, over the inputs' rows. -/
def tileTerm (c : Dev nD) (t : Fin cfg0.N) : EReal :=
  ∑ p : Fin 2048, ∑ _q : Fin 1,
    (oneW - cosQuot (X m c ⟨2048 * t.val + p.val, row_lt t p⟩) (Y m c ⟨2048 * t.val + p.val, row_lt t p⟩))

/-- The payload at point t's blocks is the previous contents plus the point's tile term. -/
theorem pay2_at (c : Dev nD) (t : Fin cfg0.N) (xs0 : Vec Ideal S1x1 .f32) (j : S1x1.Idx) :
    k0_pay2 (F := Ideal) (iblk m c 0 t) (iblk m c 1 t) xs0 j = xs0 j + tileTerm m c t := by
  refine (pay2_apply (iblk m c 0 t) (iblk m c 1 t) xs0 j).trans ?_
  unfold tileTerm
  refine congrArg (xs0 j + ·) (Finset.sum_congr rfl fun p _ => Finset.sum_congr rfl fun _ _ => ?_)
  have e0 : rowOf (iblk m c 0 t) p = X m c ⟨2048 * t.val + p.val, row_lt t p⟩ := funext fun k => iblk0_apply m c t p k
  have e1 : rowOf (iblk m c 1 t) p = Y m c ⟨2048 * t.val + p.val, row_lt t p⟩ := funext fun k => iblk1_apply m c t p k
  rw [e0, e1]

/-- The first point leaves the cell at its tile term. -/
theorem cell_first (c : Dev nD) (t : Fin cfg0.N) (h0 : t.val % 8 = 0) (h1 : ¬t.val % 8 = 7) (j : S1x1.Idx) :
    (outsAt0 m c t.val t.isLt).2 j = tileTerm m c t := by
  rw [outsAt0_A m c t h0 h1]
  dsimp only
  refine (congrFun (Pieces.cell_A (F := Ideal) c (grid0.coords t) (ms0_0 t) (hs0_0 t) (ms0_1 t) (hs0_1 t) (ms0_2 t) (hs0_2 t)
    scM0_0 (Memref.isWhole_whole _) ((hcond0_0 t).mpr h0) (fun h => h1 ((hcond0_1 t).mp h)) (iblk m c 0 t) (iblk m c 1 t)) j).trans ?_
  refine (pay2_at m c t (k0_pay1 (F := Ideal)) j).trans ?_
  rw [pay1_apply, zero_add]

/-- A middle point adds its tile term to what the point before left. -/
theorem cell_middle (c : Dev nD) (t : Fin cfg0.N) (h0 : ¬t.val % 8 = 0) (h1 : ¬t.val % 8 = 7) (j : S1x1.Idx) :
    (outsAt0 m c t.val t.isLt).2 j
      = (outsAt0 m c (t.val - 1) (Nat.lt_of_le_of_lt (Nat.sub_le _ _) t.isLt)).2 j + tileTerm m c t := by
  rw [outsAt0_B m c t h0 h1]
  dsimp only
  refine (congrFun (Pieces.cell_B (F := Ideal) c (grid0.coords t) (ms0_0 t) (hs0_0 t) (ms0_1 t) (hs0_1 t) (ms0_2 t) (hs0_2 t)
    scM0_0 (Memref.isWhole_whole _) (fun h => h0 ((hcond0_0 t).mp h)) (fun h => h1 ((hcond0_1 t).mp h)) (iblk m c 0 t) (iblk m c 1 t)
    (outsAt0 m c (t.val - 1) (Nat.lt_of_le_of_lt (Nat.sub_le _ _) t.isLt)).2) j).trans ?_
  exact pay2_at m c t _ j

/-- So does the last point, -/
theorem cell_last (c : Dev nD) (t : Fin cfg0.N) (h0 : ¬t.val % 8 = 0) (h1 : t.val % 8 = 7) (j : S1x1.Idx) :
    (outsAt0 m c t.val t.isLt).2 j
      = (outsAt0 m c (t.val - 1) (Nat.lt_of_le_of_lt (Nat.sub_le _ _) t.isLt)).2 j + tileTerm m c t := by
  rw [outsAt0_C m c t h0 h1]
  dsimp only
  refine (congrFun (Pieces.cell_C (F := Ideal) c (grid0.coords t) (ms0_0 t) (hs0_0 t) (ms0_1 t) (hs0_1 t) (ms0_2 t) (hs0_2 t)
    scM0_0 (Memref.isWhole_whole _) (fun h => h0 ((hcond0_0 t).mp h)) ((hcond0_1 t).mpr h1) (iblk m c 0 t) (iblk m c 1 t)
    (outsAt0 m c (t.val - 1) (Nat.lt_of_le_of_lt (Nat.sub_le _ _) t.isLt)).2) j).trans ?_
  exact pay2_at m c t _ j

/-- and there the output block receives the same value. -/
theorem out_last (c : Dev nD) (t : Fin cfg0.N) (h0 : ¬t.val % 8 = 0) (h1 : t.val % 8 = 7) (j : S1x1.Idx) :
    (outsAt0 m c t.val t.isLt).1 j
      = (outsAt0 m c (t.val - 1) (Nat.lt_of_le_of_lt (Nat.sub_le _ _) t.isLt)).2 j + tileTerm m c t := by
  rw [outsAt0_C m c t h0 h1]
  dsimp only
  refine (congrFun (Pieces.out_C (F := Ideal) c (grid0.coords t) (ms0_0 t) (hs0_0 t) (ms0_1 t) (hs0_1 t) (ms0_2 t) (hs0_2 t)
    scM0_0 (Memref.isWhole_whole _) (fun h => h0 ((hcond0_0 t).mp h)) ((hcond0_1 t).mpr h1) (iblk m c 0 t) (iblk m c 1 t)
    (outsAt0 m c (t.val - 1) (Nat.lt_of_le_of_lt (Nat.sub_le _ _) t.isLt)).2) j).trans ?_
  exact pay2_at m c t _ j

/-- Point s's tile term, for any natural s (0 past the grid). -/
def term (c : Dev nD) (s : ℕ) : EReal :=
  if h : s < 8 then tileTerm m c ⟨s, by rw [N8]; exact h⟩ else 0

theorem term_of_lt (c : Dev nD) (s : ℕ) (h : s < cfg0.N) : term m c s = tileTerm m c ⟨s, h⟩ := by
  unfold term
  rw [dif_pos (by rw [N8] at h; exact h)]

/-- After point n the cell holds the sum of the tile terms of the points 0 … n. -/
theorem cell_eq (c : Dev nD) : ∀ (n : ℕ) (h : n < cfg0.N) (j : S1x1.Idx),
    (outsAt0 m c n h).2 j = ∑ s ∈ Finset.range (n + 1), term m c s
  | 0, h, j => by
    rw [Finset.sum_range_one, term_of_lt m c 0 h]
    exact cell_first m c ⟨0, h⟩ rfl (by show ¬(0 : ℕ) % 8 = 7; decide) j
  | n + 1, h, j => by
    have hN : n + 1 < 8 := by rw [N8] at h; exact h
    have h0 : ¬(⟨n + 1, h⟩ : Fin cfg0.N).val % 8 = 0 := by dsimp only; omega
    rw [Finset.sum_range_succ, term_of_lt m c (n + 1) h, ← cell_eq c n (Nat.lt_of_succ_lt h) j]
    by_cases h1 : (n + 1) % 8 = 7
    · exact cell_last m c ⟨n + 1, h⟩ h0 h1 j
    · exact cell_middle m c ⟨n + 1, h⟩ h0 h1 j

/-- The loss's sum as this program forms it: the eight tile terms. -/
def total (c : Dev nD) : EReal := ∑ s ∈ Finset.range 8, term m c s

/-- The output block after the last point holds the total. -/
theorem out_eq (c : Dev nD) (h : 7 < cfg0.N) (j : S1x1.Idx) : (outsAt0 m c 7 h).1 j = total m c := by
  unfold total
  rw [Finset.sum_range_succ, term_of_lt m c 7 h, ← cell_eq m c 6 (Nat.lt_of_succ_lt h) j]
  exact out_last m c ⟨7, h⟩ (by show ¬(7 : ℕ) % 8 = 0; decide) (by show (7 : ℕ) % 8 = 7; rfl) j

/-- The total, written over the inputs' rows block by block. -/
theorem total_blocks (c : Dev nD) :
    total m c = ∑ t ∈ Finset.range 8, (if h : t < 8 then
        ∑ p : Fin 2048, ∑ _q : Fin 1,
          (oneW - cosQuot (X m c ⟨2048 * t + p.val, by omega⟩) (Y m c ⟨2048 * t + p.val, by omega⟩))
      else 0) := rfl

end Cert.KernelIdeal.Total

end
-- ==== Proof.KernelRun.lean ====
/-
  The program's run, read: its result is the total divided by the word of 16384.

  The output window is written back once, after the last point, and its 1 × 1 block is the whole 1 × 1 result array,
  so that array ends at what the last point left in the block: the total.  The lines after the region reshape the
  1 × 1 array to a scalar and divide it by 16384.
-/
import proofs.«110353_j33732673143498_1_alg».proof.Proof.KernelTotal
import Idealize.ShloMosaic.Lib.Pipeline.Value
import Idealize.ShloMosaic.Lib.StableHlo.Run
import Idealize.ShloMosaic.Lib.Tactic

set_option maxRecDepth 16384

noncomputable section

open Idealize.ShloMosaic Idealize.ShloMosaic.TcCoe Idealize.SL.Sem Idealize.ShloMosaic.ValueIdx
open Idealize.ShloMosaic.Pipeline (Dat)

namespace Cert.KernelIdeal.Total

open Cert.KernelIdeal Cert.KernelIdeal.Gen Cert.CosLoss

variable (m : (ℓ : Loc nD τ sig) → Buf (Elt Ideal) ℓ) (ρ : Dev nD → PrngReg)

theorem lt7 : 7 < cfg0.N := by rw [N8]; decide

/-- What the last point leaves in the output block, as contents of the result array (its one block is the array). -/
abbrev result (c : Dev nD) : Buf (Elt Ideal) ((c : Thread nD τ).loc main_v0) := (outsAt0 m c 7 lt7).1

/-- The one write-back, at the last point, writes it. -/
theorem flushed_eq (c : Dev nD) (t : Fin cfg0.N) (hf : (cfg0.win 2).flush t = true) :
    (dats m 0 c).flushed 2 t = ((cfg0.win 2).blk t).view.read (Elt Ideal) (result m c) := by
  have h7 : t.val = 7 := by
    have h1 := (flush0_2 t).mp hf
    have h2 : t.val < 8 := lt_of_lt_of_eq t.isLt N8
    omega
  obtain rfl : t = t0_7 := Fin.ext h7
  show (cfg0.win 2).cut (grid0.coords t0_7) ((dats m 0 c).after 2 t0_7) = _
  rw [after0_2]
  have hz' : (fun a => win0_2.index t0_7 a * main_v0.ty.shape.size a) = fun _ => 0 :=
    funext fun a => by fin_cases a <;> decide
  exact (Memref.read_access_unit_zero (Elt Ideal) main_v0 hz' (fun a => by rw [congrFun hz' a]; simp) (result m c)).symm

/-- So the result array ends at what the last point left. -/
theorem final_array (c : Dev nD) : (dats m 0 c).arrAt 2 cfg0.N = result m c :=
  (dats m 0 c).arrAt_eq_of_cover 2 (result m c) (flushed_eq m c) fun i =>
    ⟨t0_7, (flush0_2 t0_7).mpr rfl, by
      show i ∈ ((View.whole main_v0).slice (win0_2.rect t0_7)).set
      rw [View.set_slice_whole, Rect.mem_set_unit]
      intro a
      have h0 : (i 0 : Nat) < 1 := (i 0).isLt
      have h1 : (i 1 : Nat) < 1 := (i 1).isLt
      match a with
      | ⟨0, _⟩ =>
        show win0_2.index t0_7 0 * win0_2.size 0 ≤ (i 0 : Nat)
          ∧ (i 0 : Nat) < win0_2.index t0_7 0 * win0_2.size 0 + win0_2.xsize (grid0.coords t0_7) 0
        rw [show win0_2.index t0_7 0 * win0_2.size 0 = 0 from by decide +kernel,
          show win0_2.xsize (grid0.coords t0_7) 0 = 1 from by decide +kernel]
        omega
      | ⟨1, _⟩ =>
        show win0_2.index t0_7 1 * win0_2.size 1 ≤ (i 1 : Nat)
          ∧ (i 1 : Nat) < win0_2.index t0_7 1 * win0_2.size 1 + win0_2.xsize (grid0.coords t0_7) 1
        rw [show win0_2.index t0_7 1 * win0_2.size 1 = 0 from by decide +kernel,
          show win0_2.xsize (grid0.coords t0_7) 1 = 1 from by decide +kernel]
        omega⟩

/-- The result array reshaped to a scalar is the total. -/
theorem scalar_eq (c : Dev nD) :
    shapeCast S_ (result m c) shapeCasts_S1x1_S_ = fun _ => total m c := by
  funext i
  refine (shapeCast_apply _ shapeCasts_S1x1_S_ i (ix2 (0 : Fin 1) (0 : Fin 1)) ?_).trans (out_eq m c lt7 _)
  have h1 : (S_.rowMajor i).val = 0 := by
    have hlt := (S_.rowMajor i).isLt
    have hn : S_.numel = 1 := by decide
    omega
  rw [h1, Shape.rowMajor_val_two]
  rfl

/-- The lines after the region leave the result at the total divided by the word of 16384. -/
theorem tail_eq (c : Dev nD) :
    Pipeline.afterTail₀ cfgs (dats m) 0 (V0 m) [hostOps1] c main_v2
      = Host.divf (F := Ideal) (fun _ => total m c) (constant (F := Ideal) S_ .f32 0x46800000#32) := by
  unfold Pipeline.afterTail₀
  show StableHlo.after hostOps1 _ (Proc.devRef .tc main_v2) = _
  after_results
  refine congrArg (Host.divf (F := Ideal) · (constant (F := Ideal) S_ .f32 0x46800000#32)) ?_
  show shapeCast S_ (Pipeline.withArrays (cfgs 0).spec c (V0 m c) (fun w => (dats m 0 c).arrAt w (cfgs 0).N)
    (Proc.devRef .tc main_v0)) shapeCasts_S1x1_S_ = _
  rw [show Pipeline.withArrays (cfgs 0).spec c (V0 m c) (fun w => (dats m 0 c).arrAt w (cfgs 0).N)
      (Proc.devRef .tc main_v0) = (dats m 0 c).arrAt 2 cfg0.N from
    Pipeline.withArrays_arr spec0 launch0.win.arr_inj c _ _ 2, final_array]
  exact scalar_eq m c

/-- The result buffer is none of the region's arrays. -/
theorem result_rest : main_v2 ∈ Pipeline.restRefs sig cfg0.spec := by decide

/-- The run, read: the result at the total divided by the word of 16384, the inputs unchanged. -/
theorem run : θ_run defs (onTc (τ := τ) (main (F := Ideal))) ⟨m, fun _ => 0, ρ⟩ fun r => ∀ c : Dev nD,
      r.2.mem ((c : Thread nD τ).loc main_v2)
        = Host.divf (F := Ideal) (fun _ => total m c) (constant (F := Ideal) S_ .f32 0x46800000#32)
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun _ h c =>
    ⟨((h c).2 main_v2 result_rest).trans (tail_eq m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c)))⟩)
    (run_main m ρ)

end Cert.KernelIdeal.Total

end
-- ==== Proof.RefStages.lean ====
/-
  The reference's result, read one operation at a time.

  The reference divides every entry of a row by the row's floored norm max(√(0 + Σₖ x²), ε) (the norm computed as a
  column and spread back over the row), multiplies the two normalized arrays entry by entry, sums each row (from 0),
  subtracts each row sum from 1, sums the 16384 differences (from 0) and divides by 16384.  On the extended reals
  every sum from 0 is the plain finite sum, so the value summed over the rows is 1 - cosDot(row r of the first
  input, row r of the second), and the result is that sum over all rows, divided by the word of 16384.
-/
import proofs.«110353_j33732673143498_1_alg».proof.Proof.Gen.ReferenceIdeal.Read
import proofs.«110353_j33732673143498_1_alg».proof.Proof.CosineAlgebra
import Idealize.ShloMosaic.Lib.ValueIdx
import Idealize.ShloMosaic.PureOps.Ideal.Laws

noncomputable section

open Idealize.ShloMosaic Idealize.ShloMosaic.ValueIdx

namespace Cert.ReferenceIdeal.Stages

open Cert.ReferenceIdeal Cert.ReferenceIdeal.Gen Cert.ReferenceIdeal.Read Cert.CosLoss

/-- Row r of a 16384 × 1024 array. -/
abbrev rowOf (x : FVec Ideal S16384x1024 .f32) (r : Fin 16384) : Fin 1024 → EReal := fun k => x (ix2 r k)

/-- The indices of a vector of 16384 entries are the naturals below 16384. -/
def vecIdx : Fin 16384 ≃ S16384.Idx where
  toFun r := ix1 r
  invFun j := j 0
  left_inv _ := rfl
  right_inv j := (eq_ix1 j).symm

/-! The generated index functions, at indices written by coordinates. -/

theorem idx_rowsum (r : Fin 16384) (k : Fin 1024) : idx_main_v11 (ix1 r) k = ix2 r k :=
  funext fun a => Fin.ext (by match a with | ⟨0, _⟩ => rfl | ⟨1, _⟩ => rfl)
theorem idx_spread0 (r : Fin 16384) (k : Fin 1024) : idx_main_v3 (ix2 r k) = ix2 r (0 : Fin 1) :=
  funext fun a => Fin.ext (by match a with | ⟨0, _⟩ => rfl | ⟨1, _⟩ => rfl)
theorem idx_spread1 (r : Fin 16384) (k : Fin 1024) : idx_main_v8 (ix2 r k) = ix2 r (0 : Fin 1) :=
  funext fun a => Fin.ext (by match a with | ⟨0, _⟩ => rfl | ⟨1, _⟩ => rfl)
theorem idx_norm0 (r : Fin 16384) (u : Fin 1) (k : Fin 1024) :
    idx_main_call0_v1 (idx_main_call0_v2 (ix2 r u)) k = ix2 r k :=
  funext fun a => Fin.ext (by match a with | ⟨0, _⟩ => rfl | ⟨1, _⟩ => rfl)
theorem idx_norm1 (r : Fin 16384) (u : Fin 1) (k : Fin 1024) :
    idx_main_call1_v1 (idx_main_call1_v2 (ix2 r u)) k = ix2 r k :=
  funext fun a => Fin.ext (by match a with | ⟨0, _⟩ => rfl | ⟨1, _⟩ => rfl)

/-- The first input's column of floored norms, at row r. -/
theorem norm0_apply (x0 : FVec Ideal S16384x1024 .f32) (r : Fin 16384) (u : Fin 1) :
    val_main_v2 (F := Ideal) x0 (ix2 r u) = flooredNorm (rowOf x0 r) := by
  rw [val_main_v2_apply, val_main_v0_apply, val_main_call0_v2_apply, val_main_call0_v1_apply, val_main_v1_apply]
  simp only [val_main_call0_v0_apply, val_main_call0_cst_apply, val_main_cst_apply, Ideal.hostUnary_sqrt_def,
    Ideal.maximumf_def, Ideal.mulf_def, Ideal.ofBits_def, Ideal.ofBits_zero_f32, zero_add, idx_norm0]
  rfl

/-- The second input's column of floored norms, at row r. -/
theorem norm1_apply (x1 : FVec Ideal S16384x1024 .f32) (r : Fin 16384) (u : Fin 1) :
    val_main_v7 (F := Ideal) x1 (ix2 r u) = flooredNorm (rowOf x1 r) := by
  rw [val_main_v7_apply, val_main_v5_apply, val_main_call1_v2_apply, val_main_call1_v1_apply, val_main_v6_apply]
  simp only [val_main_call1_v0_apply, val_main_call1_cst_apply, val_main_cst_0_apply, Ideal.hostUnary_sqrt_def,
    Ideal.maximumf_def, Ideal.mulf_def, Ideal.ofBits_def, Ideal.ofBits_zero_f32, zero_add, idx_norm1]
  rfl

/-- The value summed over the rows, at row r: 1 minus the cosine in its dot-product form. -/
theorem rowTerm_apply (x0 x1 : FVec Ideal S16384x1024 .f32) (r : Fin 16384) :
    val_main_v13 (F := Ideal) x0 x1 (ix1 r) = oneW - cosDot (rowOf x0 r) (rowOf x1 r) := by
  rw [val_main_v13_apply, val_main_v12_apply, val_main_v11_apply]
  simp only [val_main_cst_2_apply, val_main_cst_1_apply, Ideal.subf_def, Ideal.ofBits_def, Ideal.ofBits_zero_f32,
    zero_add, idx_rowsum]
  unfold cosDot
  refine congrArg (oneW - ·) (Finset.sum_congr rfl fun k _ => ?_)
  rw [val_main_v10_apply, val_main_v4_apply, val_main_v9_apply, val_main_v3_apply, val_main_v8_apply, idx_spread0,
    idx_spread1, norm0_apply, norm1_apply]
  rfl

/-- The sum over all rows. -/
theorem rowsSum_apply (x0 x1 : FVec Ideal S16384x1024 .f32) (i : S_.Idx) :
    val_main_v14 (F := Ideal) x0 x1 i = ∑ r : Fin 16384, (oneW - cosDot (rowOf x0 r) (rowOf x1 r)) := by
  rw [val_main_v14_apply]
  simp only [val_main_cst_3_apply, Ideal.ofBits_def, Ideal.ofBits_zero_f32, zero_add]
  rw [← Equiv.sum_comp vecIdx]
  exact Finset.sum_congr rfl fun r _ => rowTerm_apply x0 x1 r

/-- The reference's result: the sum over all rows divided by the word of 16384. -/
theorem result_eq (x0 x1 : FVec Ideal S16384x1024 .f32) :
    val_main_v15 (F := Ideal) x0 x1
      = Host.divf (F := Ideal) (fun _ => ∑ r : Fin 16384, (oneW - cosDot (rowOf x0 r) (rowOf x1 r)))
          (constant (F := Ideal) S_ .f32 0x46800000#32) := by
  unfold val_main_v15 val_main_cst_4
  exact congrArg (Host.divf (F := Ideal) · (constant (F := Ideal) S_ .f32 0x46800000#32))
    (funext fun i => rowsSum_apply x0 x1 i)

end Cert.ReferenceIdeal.Stages

end
-- ==== Proof.FiniteInputs.lean ====
/-
  What the precondition says: every entry of both inputs is a real number.

  The precondition is the conjunction of two `all` reductions, one per input, of the entrywise test |x| < +∞.
  A conjunction that is 1 has both sides 1; an `all` that is 1 has every entry 1; and an extended real whose
  absolute value max(x, -x) lies strictly below +∞ is neither infinity, so it is a real.
-/
import proofs.«110353_j33732673143498_1_alg».proof.Pre_finite_inputs
import Idealize.ShloMosaic.PureOps.Ideal
import Idealize.ShloMosaic.PureOps.Ideal.Laws
import Idealize.ShloMosaic.Lib.ReduceAll
import Idealize.ShloMosaic.Lib.ValueIdx
import Idealize.ShloMosaic.Lib.Pipeline.Value

noncomputable section

open Idealize.ShloMosaic

namespace Cert.CosLoss

/-- An extended real whose absolute value is below +∞ is a real. -/
theorem real_of_abs_lt_top (x : EReal) (h : max x (-x) < ⊤) : ∃ a : ℝ, x = a := by
  induction x using EReal.rec
  · simp at h
  · exact ⟨_, rfl⟩
  · simp at h

/-- The word the test compares against denotes +∞. -/
theorem inf_word : Ideal.ofBits .f32 0x7F800000#32 = ⊤ := by
  simp [Ideal.ofBits, Ideal.ieee]

/-- A strict comparison that answers 1 holds. -/
theorem lt_of_cmp_olt {x y : EReal} (h : Ideal.cmp .olt x y = 1#1) : x < y := by
  by_contra hn
  have : Ideal.cmp .olt x y = 0#1 := by
    show BitVec.ofBool (decide (x < y)) = 0#1
    rw [decide_eq_false hn]
    rfl
  rw [this] at h
  exact absurd h (by decide)

open Cert.Pre_finite_inputs in
/-- Under the precondition every entry of both inputs is a real. -/
theorem finite_of_pre [Cert.Pre_finite_inputs.Facts] (a0 a1 : FVec Ideal S16384x1024 .f32)
    (h : Cert.Pre_finite_inputs.fn (F := Ideal) a0 a1 = fun _ => 1#1) :
    (∀ i, ∃ r : ℝ, a0 i = r) ∧ (∀ i, ∃ r : ℝ, a1 i = r) := by
  have h0 := congrFun h ValueIdx.ix0
  dsimp only [Cert.Pre_finite_inputs.fn] at h0
  obtain ⟨e0, e1⟩ := IntOp.andi_eq_one.1 h0
  haveI : Subsingleton S_.Idx := ⟨fun a b => funext fun d => d.elim0⟩
  have hb : ∀ i : S16384x1024.Idx,
      broadcastInDim S16384x1024 ![] Facts.bcast_S_S16384x1024 (constant (F := Ideal) S_ .f32 0x7F800000#32) i = ⊤ :=
    fun i => (broadcastInDim_apply _ Facts.bcast_S_S16384x1024 _ i ValueIdx.ix0 (fun a => a.elim0)).trans inf_word
  refine ⟨fun i => ?_, fun i => ?_⟩
  · have hi : Ideal.cmp .olt (max (a0 i) (-(a0 i)))
        (broadcastInDim S16384x1024 ![] Facts.bcast_S_S16384x1024 (constant (F := Ideal) S_ .f32 0x7F800000#32) i) = 1#1 :=
      Host.reduce_andi_all _ _ _ _ _ e0 i
    rw [hb] at hi
    exact real_of_abs_lt_top _ (lt_of_cmp_olt hi)
  · have hi : Ideal.cmp .olt (max (a1 i) (-(a1 i)))
        (broadcastInDim S16384x1024 ![] Facts.bcast_S_S16384x1024 (constant (F := Ideal) S_ .f32 0x7F800000#32) i) = 1#1 :=
      Host.reduce_andi_all _ _ _ _ _ e1 i
    rw [hb] at hi
    exact real_of_abs_lt_top _ (lt_of_cmp_olt hi)

end Cert.CosLoss

end
-- ==== Proof.lean ====
/-
  The cosine loss mean(1 - cos(x_r, y_r)) over the 16384 rows of two 16384 × 1024 inputs, two ways.

  One program walks the rows in eight blocks of 2048: for each row it takes the dot product Σₖ x y and the floored
  norms max(√Σ x², ε), max(√Σ y², ε), forms 1 - dot / (norm · norm), adds these up over the block, and keeps a
  running total across the blocks; the total is written out after the last block and divided by 16384.  The other
  normalizes every entry first (x / max(‖x‖, ε), y / max(‖y‖, ε)), takes the row-wise dot product of the normalized
  arrays, sums 1 - that over all rows at once and divides by 16384.

  On the extended reals, for inputs whose entries are all real (the precondition), the two per-row cosines are one
  number — the positive real norms' reciprocals distribute over the finite sum — and a finite sum does not depend
  on how its terms are grouped; both programs then divide the same number by the same word.  The three frames are
  the generated runs; nothing was rewritten between the program as printed and its exact reading.
-/
import proofs.«110353_j33732673143498_1_alg».proof.Defs
import proofs.«110353_j33732673143498_1_alg».proof.Proof.Gen.Kernel
import proofs.«110353_j33732673143498_1_alg».proof.Proof.Gen.Kernel.Skeleton
import proofs.«110353_j33732673143498_1_alg».proof.Proof.Gen.Kernel.Launch
import proofs.«110353_j33732673143498_1_alg».proof.Proof.Gen.Kernel.Points
import proofs.«110353_j33732673143498_1_alg».proof.Proof.Gen.Kernel.Frame
import proofs.«110353_j33732673143498_1_alg».proof.Proof.Gen.KernelIdeal
import proofs.«110353_j33732673143498_1_alg».proof.Proof.Gen.KernelIdeal.Skeleton
import proofs.«110353_j33732673143498_1_alg».proof.Proof.Gen.KernelIdeal.Launch
import proofs.«110353_j33732673143498_1_alg».proof.Proof.Gen.KernelIdeal.Points
import proofs.«110353_j33732673143498_1_alg».proof.Proof.Gen.KernelIdeal.Frame
import proofs.«110353_j33732673143498_1_alg».proof.Proof.Gen.ReferenceIdeal
import proofs.«110353_j33732673143498_1_alg».proof.Proof.Gen.ReferenceIdeal.Run
import proofs.«110353_j33732673143498_1_alg».proof.Proof.Gen.ReferenceIdeal.Read
import proofs.«110353_j33732673143498_1_alg».proof.Proof.Gen.Pre_finite_inputs
import proofs.«110353_j33732673143498_1_alg».proof.Proof.KernelRun
import proofs.«110353_j33732673143498_1_alg».proof.Proof.RefStages
import proofs.«110353_j33732673143498_1_alg».proof.Proof.FiniteInputs
import Idealize.ShloMosaic.Adequacy
import Idealize.ShloMosaic.Init

noncomputable section

namespace Cert.Proof

open Idealize.ShloMosaic Idealize.SL.Sem

/-- The program as printed runs and keeps its inputs: the generated frame. -/
theorem frame_k : Cert.frame_Kernel := fun m ρ _ => Cert.Kernel.Gen.frame m ρ

/-- So does its exact reading. -/
theorem frame_ki : Cert.frame_KernelIdeal := fun m ρ _ => Cert.KernelIdeal.Gen.frame m ρ

/-- The reference runs and keeps its inputs: its generated run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- Nothing was rewritten on the way to the exact reading. -/
theorem preserves : Cert.preserves_Kernel_KernelIdeal := trivial

/-- The block-wise total is the all-rows sum when every entry is real. -/
theorem total_eq_rows (m : (ℓ : Loc Cert.KernelIdeal.nD Cert.KernelIdeal.τ Cert.KernelIdeal.sig) → Buf (Elt Ideal) ℓ)
    (c : Dev Cert.KernelIdeal.nD) (hpre : Cert.Pre_KernelIdeal m) :
    Cert.KernelIdeal.Total.total m c
      = ∑ r : Fin 16384, (Cert.CosLoss.oneW
          - Cert.CosLoss.cosDot (Cert.KernelIdeal.Total.X m c r) (Cert.KernelIdeal.Total.Y m c r)) := by
  obtain ⟨f0, f1⟩ := Cert.CosLoss.finite_of_pre _ _ (hpre c)
  exact (Cert.KernelIdeal.Total.total_blocks m c).trans
    (Cert.CosLoss.blocks_eq_rows (Cert.KernelIdeal.Total.X m c) (Cert.KernelIdeal.Total.Y m c)
      (fun r k => f0 _) (fun r k => f1 _))

/-- From inputs that agree and are real, both programs end at the same number: the sum over the rows of
    1 - cosine, divided by the word of 16384. -/
theorem algebraic : Cert.algebraic_KernelIdeal_ReferenceIdeal := by
  intro m ρ m' ρ' hpre hagree
  refine ⟨fun c => Host.divf (F := Ideal) (fun _ => Cert.KernelIdeal.Total.total m c)
    (constant (F := Ideal) Cert.KernelIdeal.S_ .f32 0x46800000#32), Cert.KernelIdeal.Total.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v15_eq, Cert.ReferenceIdeal.Stages.result_eq, (hagree c).1, (hagree c).2]
  show _ = Host.divf (F := Ideal) (fun _ => Cert.KernelIdeal.Total.total m c)
    (constant (F := Ideal) Cert.KernelIdeal.S_ .f32 0x46800000#32)
  rw [total_eq_rows m c hpre]

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
